-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S2000x128 : Shape := ⟨2, ![2000, 128]⟩
abbrev S2000x1 : Shape := ⟨2, ![2000, 1]⟩
abbrev S1x128 : Shape := ⟨2, ![1, 128]⟩

abbrev nBuf : Space → Nat
  | .hbm => 56
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000x1, .f32⟩
  | .hbm, ⟨14, _⟩ => ⟨S_, .f32⟩
  | .hbm, ⟨15, _⟩ => ⟨S50000x1, .f32⟩
  | .hbm, ⟨16, _⟩ => ⟨S800000x1, .i32⟩
  | .hbm, ⟨17, _⟩ => ⟨S50000x1, .f32⟩
  | .hbm, ⟨18, _⟩ => ⟨S_, .f32⟩
  | .hbm, ⟨19, _⟩ => ⟨S50000x1, .f32⟩
  | .hbm, ⟨20, _⟩ => ⟨S50000x1, .f32⟩
  | .hbm, ⟨21, _⟩ => ⟨S_, .f32⟩
  | .hbm, ⟨22, _⟩ => ⟨S50000x1, .f32⟩
  | .hbm, ⟨23, _⟩ => ⟨S50000x1, .f32⟩
  | .hbm, ⟨24, _⟩ => ⟨S50000x128, .bf16⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .bf16⟩
  | .hbm, ⟨34, _⟩ => ⟨S800000x128, .f32⟩
  | .hbm, ⟨35, _⟩ => ⟨S_, .f32⟩
  | .hbm, ⟨36, _⟩ => ⟨S50000x128, .f32⟩
  | .hbm, ⟨37, _⟩ => ⟨S800000x1, .i32⟩
  | .hbm, ⟨38, _⟩ => ⟨S50000x128, .f32⟩
  | .hbm, ⟨39, _⟩ => ⟨S50000x128, .f32⟩
  | .hbm, ⟨40, _⟩ => ⟨S50000x128, .bf16⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .bf16⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S2000x128, .f32⟩
  | .local _ .vmem, ⟨10, _⟩ => ⟨S2000x128, .f32⟩
  | .local _ .vmem, ⟨11, _⟩ => ⟨S2000x128, .bf16⟩
  | .local _ .vmem, ⟨12, _⟩ => ⟨S2000x128, .bf16⟩
  | .local _ .vmem, ⟨13, _⟩ => ⟨S2000x128, .f32⟩
  | .local _ .vmem, ⟨14, _⟩ => ⟨S2000x128, .f32⟩
  | .local _ .vmem, ⟨15, _⟩ => ⟨S2000x1, .f32⟩
  | .local _ .vmem, ⟨16, _⟩ => ⟨S2000x1, .f32⟩
  | .local _ .vmem, ⟨17, _⟩ => ⟨S2000x128, .f32⟩
  | .local _ .vmem, ⟨18, _⟩ => ⟨S2000x128, .f32⟩
  | .local _ .vmem, ⟨19, _⟩ => ⟨S128x128, .f32⟩
  | .local _ .vmem, ⟨20, _⟩ => ⟨S128, .f32⟩
  | .local _ .vmem, ⟨21, _⟩ => ⟨S128x128, .f32⟩
  | .local _ .vmem, ⟨22, _⟩ => ⟨S2000x128, .f32⟩
  | .local _ .vmem, ⟨23, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24_0 : Ref sig .tc := ⟨.hbm, 39, rfl⟩
abbrev main_v24_1 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000x1 : S_.BroadcastsInDim S800000x1 (![] : Fin 0 → Fin S800000x1.rank)
  bcast_S_S50000x1 : S_.BroadcastsInDim S50000x1 (![] : Fin 0 → Fin S50000x1.rank)
  bcast_S800000_S800000x1_0 : S800000.BroadcastsInDim S800000x1 (![0] : Fin 1 → Fin S800000x1.rank)
  bitsLt_bf16_f32 : FTy.bits .bf16 < FTy.bits .f32
  bcast_S_S800000 : S_.BroadcastsInDim S800000 (![] : Fin 0 → Fin S800000.rank)
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  scatter_S50000x1_S800000x1_S800000x1_1_0_0_1_wf : ScatterDims.WF S50000x1 S800000x1 S800000x1 [1] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .bf16 = 32 ∨ (Rect.block (s := S50000x128) S2000x128.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)

variable [Facts₀]

def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v23) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24_0) S2000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v24_1) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v35) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24_0) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000x1, .f32⟩
  | .hbm, ⟨27, _⟩ => ⟨S_, .f32⟩
  | .hbm, ⟨28, _⟩ => ⟨S50000x1, .f32⟩
  | .hbm, ⟨29, _⟩ => ⟨S800000x1, .i32⟩
  | .hbm, ⟨30, _⟩ => ⟨S50000x1, .f32⟩
  | .hbm, ⟨31, _⟩ => ⟨S_, .f32⟩
  | .hbm, ⟨32, _⟩ => ⟨S50000x1, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S_, .f32⟩
  | .hbm, ⟨43, _⟩ => ⟨S50000x128, .f32⟩
  | .hbm, ⟨44, _⟩ => ⟨S50000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S_, .f32⟩
  | .hbm, ⟨59, _⟩ => ⟨S800000x1, .f32⟩
  | .hbm, ⟨60, _⟩ => ⟨S_, .f32⟩
  | .hbm, ⟨61, _⟩ => ⟨S50000x1, .f32⟩
  | .hbm, ⟨62, _⟩ => ⟨S800000x1, .i32⟩
  | .hbm, ⟨63, _⟩ => ⟨S50000x1, .f32⟩
  | .hbm, ⟨64, _⟩ => ⟨S_, .f32⟩
  | .hbm, ⟨65, _⟩ => ⟨S50000x1, .f32⟩
  | .hbm, ⟨66, _⟩ => ⟨S50000x1, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S_, .f32⟩
  | .hbm, ⟨76, _⟩ => ⟨S50000x128, .f32⟩
  | .hbm, ⟨77, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call0_cst : Ref sig .tc := ⟨.hbm, 42, rfl⟩
abbrev main_call0_v0 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call1_cst : Ref sig .tc := ⟨.hbm, 75, rfl⟩
abbrev main_call1_v0 : Ref sig .tc := ⟨.hbm, 76, rfl⟩
abbrev main_v53 : Ref sig .tc := ⟨.hbm, 77, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The whole program's run with its result named.

  The program is four stretches in order: host operations, the first call, host operations, the second call. The
  contents of the device's buffers at each boundary form a fold from the launch memory: `W1` after the first stretch
  of host operations, `W2` with the first call's arrays at what its write-backs leave, `W3` after the second stretch,
  `W4` with the second call's arrays at what its write-backs leave. Every weakly fair execution terminates without a
  fault, and in its final state every buffer that outlives the calls holds its `W4` contents: in particular the
  program's result buffer holds `W4` at that buffer, and each argument is as launched.
-/
import proofs.«172372_j22170621182211_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting; the
    result buffer ends at the last boundary's contents `W4` and the arguments end as launched. -/
theorem run_result : θ_run defs (onTc (τ := τ) (main (F := F))) ⟨m, fun _ => 0, ρ⟩ (fun r => ∀ c : Dev nD,
      r.2.mem ((c.tc : Thread nD τ).loc main_v36) = W4 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v36 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Run

end
-- ==== Proof.LibPlainMatmul.lean ====
/-
  A plain matrix product read at an entry. For an M×K left operand and a K×N right operand contracted over the one
  shared axis (left axis 1 against right axis 0, no batch axis), the exact product into a zero accumulator has, at row r
  and column c, the value  Σ_k lhs(r, k) · rhs(k, c): the operand indices at output index (r, c) and contraction position
  k are (r, k) and (k, c).
-/
import Idealize.ShloMosaic.PureOps.Ideal.Laws
import Idealize.ShloMosaic.Lib.ValueIdx

noncomputable section

namespace PlainMatmul

open Idealize.ShloMosaic Idealize.ShloMosaic.ValueIdx

variable {M K N : ℕ}

/-- The left operand's row is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The product into the zero accumulator, at (r, c), is Σ_k lhs(r, k) · rhs(k, c). -/
theorem apply_zero {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end PlainMatmul

end
-- ==== Proof.LibMergedAxes.lean ====
/-
  Layout operations read at an index written by coordinates, for an array whose two leading axes (batch, head)
  are merged into one before a kernel and split again after it, and for a row statistic kept as a column.

  A shape cast keeps the row-major position of every element. So
  • merging the two leading axes, [a, b, c, d] → [n, c, d] with n = a·b, reads row z = p·b + q at (p, q, ·, ·), and
    splitting them again, [n, c, d] → [a, b, c, d], reads (p, q, ·, ·) at row z = p·b + q. The merged extent is a
    literal in a printed program (64, not 4·16), so it is a variable `n` here and only the row's value is related
    to p·b + q;
  • a vector [a] kept as a column [a, 1] reads (p, ·) at p.
  A broadcast along an axis of extent one reads the operand's one entry on that axis: a column [a, 1] broadcast
  to [a, b] reads (p, q) at (p, 0).
-/
import Idealize.ShloMosaic.Lib.ValueLayout

namespace Cert.LibMergedAxes

open Idealize.ShloMosaic Idealize.ShloMosaic.ValueIdx

variable {α : Type}

/-- An `[a, b, c, d]` array with its two leading axes merged, `[n, c, d]` with n = a·b, reads, at row
    `z = p·b + q`, the operand at `(p, q, r, e)`: both sit at row-major position ((p·b + q)·c + r)·d + e. -/
theorem shapeCast_abcd_ncd_apply {a b c d n : ℕ} (x : (⟨4, ![a, b, c, d]⟩ : Shape).Idx → α)
    (h : (⟨4, ![a, b, c, d]⟩ : Shape).ShapeCasts ⟨3, ![n, c, d]⟩) (p : Fin a) (q : Fin b) (r : Fin c) (e : Fin d)
    (z : Fin n) (hz : z.val = p.val * b + q.val) :
    shapeCast ⟨3, ![n, c, d]⟩ x h (ix3 z r e) = x (ix4 p q r e) :=
  shapeCast_apply x h _ _ (by
    rw [Shape.rowMajor_val_four, Shape.rowMajor_val_three]
    show ((p.val * b + q.val) * c + r.val) * d + e.val = (z.val * c + r.val) * d + e.val
    rw [hz])

/-- An `[n, c, d]` array, n = a·b, with its leading axis split, `[a, b, c, d]`, reads, at `(p, q, r, e)`, the
    operand at row `z = p·b + q`. -/
theorem shapeCast_ncd_abcd_apply {a b c d n : ℕ} (x : (⟨3, ![n, c, d]⟩ : Shape).Idx → α)
    (h : (⟨3, ![n, c, d]⟩ : Shape).ShapeCasts ⟨4, ![a, b, c, d]⟩) (p : Fin a) (q : Fin b) (r : Fin c) (e : Fin d)
    (z : Fin n) (hz : z.val = p.val * b + q.val) :
    shapeCast ⟨4, ![a, b, c, d]⟩ x h (ix4 p q r e) = x (ix3 z r e) :=
  shapeCast_apply x h _ _ (by
    rw [Shape.rowMajor_val_three, Shape.rowMajor_val_four]
    show (z.val * c + r.val) * d + e.val = ((p.val * b + q.val) * c + r.val) * d + e.val
    rw [hz])

/-- A vector `[a]` kept as a column `[a, 1]` reads, at `(p, u)`, the operand at `p`, whatever the unit
    coordinate `u`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column `[a, 1]` broadcast to `[a, b]` reads, at `(p, q)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.LibMergedAxes
-- ==== Proof.SageLayer.lean ====
/-
  One mean-aggregation graph layer, entry by entry, on the extended reals.

  For N nodes with D features, a matrix `msg` of summed neighbour messages [N, D], a column `c` [N, 1] of divisors
  (the neighbour counts, floored at one), the node features `h` [N, D], two weight matrices `Wl`, `Wr` [D, D], a bias
  `bl` [D] and a floor `z`, the layer's entry (r, q) is

      max( Σ_k (msg(r,k) / c(r)) · Wl(k,q) + bl(q) + Σ_k h(r,k) · Wr(k,q),  z ).

  The mean can be taken by dividing by c(r) (`layerDiv`) or by multiplying with the reciprocal 1 / c(r) computed once
  per node (`layerMul`). Where no divisor is zero the two agree on every extended real, the infinities included: the
  quotient x / y off zero is x · y⁻¹, and 1 / y is y⁻¹.
-/
import Idealize.ShloMosaic.PureOps.Ideal
import Idealize.ShloMosaic.Lib.ValueIdx

noncomputable section

namespace SageLayer

open Idealize.ShloMosaic Idealize.ShloMosaic.ValueIdx

variable {N D : ℕ}

/-- The layer with the mean taken as a quotient by the divisor column. -/
def layerDiv (msg : (⟨2, ![N, D]⟩ : Shape).Idx → EReal) (c : (⟨2, ![N, 1]⟩ : Shape).Idx → EReal)
    (h : (⟨2, ![N, D]⟩ : Shape).Idx → EReal) (Wl : (⟨2, ![D, D]⟩ : Shape).Idx → EReal)
    (bl : (⟨1, ![D]⟩ : Shape).Idx → EReal) (Wr : (⟨2, ![D, D]⟩ : Shape).Idx → EReal) (z : EReal) :
    (⟨2, ![N, D]⟩ : Shape).Idx → EReal :=
  fun j => max (((∑ k : Fin D, Ideal.div (msg (ix2 (j 0) k)) (c (ix2 (j 0) (0 : Fin 1))) * Wl (ix2 k (j 1)))
      + bl (ix1 (j 1))) + ∑ k : Fin D, h (ix2 (j 0) k) * Wr (ix2 k (j 1))) z

/-- The layer with the mean taken as a product with a reciprocal column. -/
def layerMul (msg : (⟨2, ![N, D]⟩ : Shape).Idx → EReal) (inv : (⟨2, ![N, 1]⟩ : Shape).Idx → EReal)
    (h : (⟨2, ![N, D]⟩ : Shape).Idx → EReal) (Wl : (⟨2, ![D, D]⟩ : Shape).Idx → EReal)
    (bl : (⟨1, ![D]⟩ : Shape).Idx → EReal) (Wr : (⟨2, ![D, D]⟩ : Shape).Idx → EReal) (z : EReal) :
    (⟨2, ![N, D]⟩ : Shape).Idx → EReal :=
  fun j => max (((∑ k : Fin D, (msg (ix2 (j 0) k) * inv (ix2 (j 0) (0 : Fin 1))) * Wl (ix2 k (j 1)))
      + bl (ix1 (j 1))) + ∑ k : Fin D, h (ix2 (j 0) k) * Wr (ix2 k (j 1))) z

/-- Off zero, multiplying by the reciprocal of `y` is dividing by `y`, for every extended real `x`. -/
theorem mul_one_div (x y : EReal) (hy : y ≠ 0) : x * Ideal.div 1 y = Ideal.div x y := by
  unfold Ideal.div
  rw [if_neg hy, if_neg hy, one_mul]

/-- With a reciprocal column computed from a divisor column that is nowhere zero, the two forms of the layer agree. -/
theorem layerMul_recip (msg : (⟨2, ![N, D]⟩ : Shape).Idx → EReal) (c : (⟨2, ![N, 1]⟩ : Shape).Idx → EReal)
    (h : (⟨2, ![N, D]⟩ : Shape).Idx → EReal) (Wl : (⟨2, ![D, D]⟩ : Shape).Idx → EReal)
    (bl : (⟨1, ![D]⟩ : Shape).Idx → EReal) (Wr : (⟨2, ![D, D]⟩ : Shape).Idx → EReal) (z : EReal)
    (hc : ∀ i, c i ≠ 0) :
    layerMul msg (fun i => Ideal.div 1 (c i)) h Wl bl Wr z = layerDiv msg c h Wl bl Wr z := by
  funext j
  unfold layerMul layerDiv
  simp only [mul_one_div _ _ (hc _)]

/-- A count floored at one is not zero: `max x 1 ≥ 1 > 0`. -/
theorem max_one_ne_zero (x : EReal) : max x 1 ≠ 0 :=
  ne_of_gt (lt_of_lt_of_le zero_lt_one (le_max_right x 1))

end SageLayer

end
-- ==== Proof.BlockEntry.lean ====
/-
  One block of the layer, entry by entry.

  A grid point of either call works on 2000 consecutive rows. From the block `a` of summed messages [2000, 128], the
  block `s` of per-row reciprocals [2000, 1], the block `h` of node features [2000, 128], the weights `Wl`, `Wr`
  [128, 128] and the bias `b` [128] it stores, at row p and column q,

      max( Σ_k (a(p,k) · s(p,0)) · Wl(k,q) + b(q) + Σ_k h(p,k) · Wr(k,q),  0 ).

  The reciprocal column is copied along the rows' 128 columns before the product, the bias is kept as one row and copied
  into every row, both matrix products run into a zero accumulator, and the narrowing of the operands to a shorter float
  format is the identity on the exact values. The second call's body is the same expression.
-/
import proofs.«172372_j22170621182211_2_alg».proof.Proof.Gen.KernelIdeal.Skeleton
import proofs.«172372_j22170621182211_2_alg».proof.Proof.LibPlainMatmul
import proofs.«172372_j22170621182211_2_alg».proof.Proof.LibMergedAxes
import Idealize.ShloMosaic.Lib.ValueLayout
import Idealize.ShloMosaic.Lib.Pipeline.Value
import Idealize.ShloMosaic.PureOps.Ideal.Laws
import proofs.«172372_j22170621182211_2_alg».proof.Proof.SageLayer

noncomputable section

namespace Cert.KernelIdeal.BlockEntry

open Cert.KernelIdeal Cert.KernelIdeal.Gen Idealize.ShloMosaic Idealize.ShloMosaic.ValueIdx

/-- The printed contraction record is the plain one: left axis 1 against right axis 0, no batch axis. -/
theorem dot_plain : dot_S2000x128_S128x128_S2000x128_1_0_0_1_n_n = DotDims.plain 2000 128 128 := rfl

/-- The first call's stored block at (p, q). -/
theorem pay0_apply (a : Vec Ideal S2000x128 .f32) (s : Vec Ideal S2000x1 .f32) (h : Vec Ideal S2000x128 .f32)
    (Wl Wr : Vec Ideal S128x128 .f32) (b : Vec Ideal S128 .f32) (p : Fin 2000) (q : Fin 128) :
    k0_pay1 (F := Ideal) a s h Wl Wr b (ix2 p q)
      = max (((∑ k : Fin 128, (a (ix2 p k) * s (ix2 p (0 : Fin 1))) * Wl (ix2 k q)) + b (ix1 q))
          + ∑ k : Fin 128, h (ix2 p k) * Wr (ix2 k q)) (Ideal.ofBits .f32 0x00000000#32) := by
  unfold k0_pay1
  simp only [dot_plain, matmul]
  rw [maximumf_apply, addf_apply, addf_apply, PlainMatmul.apply_zero, PlainMatmul.apply_zero,
    broadcastTo_1b_ab_apply, shapeCast_a_1a_apply]
  simp only [truncf_apply, mulf_apply, shapeCast_self, Cert.LibMergedAxes.broadcastTo_a1_ab_apply, broadcast_apply]
  rfl

/-- The first call's second output, the same block narrowed to a shorter float format: the same exact values. -/
theorem pay0_narrow_apply (a : Vec Ideal S2000x128 .f32) (s : Vec Ideal S2000x1 .f32) (h : Vec Ideal S2000x128 .f32)
    (Wl Wr : Vec Ideal S128x128 .f32) (b : Vec Ideal S128 .f32) (p : Fin 2000) (q : Fin 128) :
    k0_pay2 (F := Ideal) a s h Wl Wr b (ix2 p q)
      = max (((∑ k : Fin 128, (a (ix2 p k) * s (ix2 p (0 : Fin 1))) * Wl (ix2 k q)) + b (ix1 q))
          + ∑ k : Fin 128, h (ix2 p k) * Wr (ix2 k q)) (Ideal.ofBits .f32 0x00000000#32) := by
  unfold k0_pay2
  rw [truncf_apply]
  exact pay0_apply a s h Wl Wr b p q

/-- The second call's stored block at (p, q): the same expression of its own operands. -/
theorem pay1_apply (a : Vec Ideal S2000x128 .f32) (s : Vec Ideal S2000x1 .f32) (h : Vec Ideal S2000x128 .f32)
    (Wl Wr : Vec Ideal S128x128 .f32) (b : Vec Ideal S128 .f32) (p : Fin 2000) (q : Fin 128) :
    k1_pay1 (F := Ideal) a s h Wl Wr b (ix2 p q)
      = max (((∑ k : Fin 128, (a (ix2 p k) * s (ix2 p (0 : Fin 1))) * Wl (ix2 k q)) + b (ix1 q))
          + ∑ k : Fin 128, h (ix2 p k) * Wr (ix2 k q)) (Ideal.ofBits .f32 0x00000000#32) := by
  unfold k1_pay1
  simp only [dot_plain, matmul]
  rw [maximumf_apply, addf_apply, addf_apply, PlainMatmul.apply_zero, PlainMatmul.apply_zero,
    broadcastTo_1b_ab_apply, shapeCast_a_1a_apply]
  simp only [truncf_apply, mulf_apply, shapeCast_self, Cert.LibMergedAxes.broadcastTo_a1_ab_apply, broadcast_apply]
  rfl

/-- The block expression at (p, q) is the whole layer's entry at the array index `i`, once each operand block is
    known to hold the array's row `i 0` (for the row operands) or the whole small array (weights, bias). -/
theorem entry_eq_layer (a : Vec Ideal S2000x128 .f32) (s : Vec Ideal S2000x1 .f32) (h : Vec Ideal S2000x128 .f32)
    (Wl Wr : Vec Ideal S128x128 .f32) (b : Vec Ideal S128 .f32)
    (MSG : (⟨2, ![50000, 128]⟩ : Shape).Idx → EReal) (INV : (⟨2, ![50000, 1]⟩ : Shape).Idx → EReal)
    (H : (⟨2, ![50000, 128]⟩ : Shape).Idx → EReal) (WL : (⟨2, ![128, 128]⟩ : Shape).Idx → EReal)
    (B : (⟨1, ![128]⟩ : Shape).Idx → EReal) (WR : (⟨2, ![128, 128]⟩ : Shape).Idx → EReal) (z : EReal)
    (i : (⟨2, ![50000, 128]⟩ : Shape).Idx) (p : Fin 2000) (q : Fin 128)
    (ha : ∀ k, a (ix2 p k) = MSG (ix2 (i 0) k)) (hs : s (ix2 p (0 : Fin 1)) = INV (ix2 (i 0) (0 : Fin 1)))
    (hh : ∀ k, h (ix2 p k) = H (ix2 (i 0) k)) (hWl : ∀ k, Wl (ix2 k q) = WL (ix2 k (i 1)))
    (hb : b (ix1 q) = B (ix1 (i 1))) (hWr : ∀ k, Wr (ix2 k q) = WR (ix2 k (i 1))) :
    max (((∑ k : Fin 128, (a (ix2 p k) * s (ix2 p (0 : Fin 1))) * Wl (ix2 k q)) + b (ix1 q))
          + ∑ k : Fin 128, h (ix2 p k) * Wr (ix2 k q)) z
      = SageLayer.layerMul MSG INV H WL B WR z i := by
  unfold SageLayer.layerMul
  simp only [ha, hs, hh, hWl, hb, hWr]

end Cert.KernelIdeal.BlockEntry

end
-- ==== Proof.CallZero.lean ====
/-
  What call 0 leaves in its output arrays, as one function of the arrays the call finds on entry.

  The call's grid has 25 points; point t works on rows 2000·t … 2000·t + 1999: its three row operands (summed messages,
  reciprocal column, node features) and its output blocks all sit at block row t, the two weight matrices and the bias are
  fetched whole. So what point t writes back is rows 2000·t … of the whole layer `SageLayer.layerMul` of the entry arrays,
  the 25 blocks tile the 50000 rows (row r lies in block r / 2000), and the array after the call is the layer.
-/
import proofs.«172372_j22170621182211_2_alg».proof.Proof.Gen.KernelIdeal.Frame
import proofs.«172372_j22170621182211_2_alg».proof.Proof.BlockEntry
import Idealize.ShloMosaic.Lib.Pipeline.Value

set_option maxRecDepth 16384

noncomputable section

namespace Cert.KernelIdeal.CallZero

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem off2 : (![0, 0] : Fin 2 → Nat) = fun _ => 0 := funext fun a => by fin_cases a <;> rfl
theorem off1 : (![0] : Fin 1 → Nat) = fun _ => 0 := funext fun a => by fin_cases a <;> rfl

/-- The floor of the activation: the float word of zero, kept as a word. -/
abbrev zeroWord : EReal := Ideal.ofBits .f32 0x00000000#32

/-- The layer of the arrays as the call finds them. -/
abbrev layerOf (c : Dev nD) : (⟨2, ![50000, 128]⟩ : Shape).Idx → EReal :=
  SageLayer.layerMul (N := 50000) (D := 128) (V c (Pipeline.arrRef spec0 0)) (V c (Pipeline.arrRef spec0 1)) (V c (Pipeline.arrRef spec0 2))
    (V c (Pipeline.arrRef spec0 3)) (V c (Pipeline.arrRef spec0 4)) (V c (Pipeline.arrRef spec0 5)) zeroWord

/-- The printed index maps over the grid: the row operands and the outputs at the point's own block row, column block
    0; the weights and the bias at block 0. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem points : cfg0.N = 25 := N_0

/-- WHAT POINT `t` WRITES BACK through output window 6 is block `t` of the layer of the entry arrays. -/
theorem flushed6_eq (c : Dev nD) (t : Fin cfg0.N) :
    (dat0 V c).flushed 6 t = ((cfg0.win 6).blk t).view.read (Elt Ideal) (layerOf V c) := by
  show (cfg0.win 6).cut (grid0.coords t) ((dat0 V c).after 6 t) = _
  rw [after0_6]
  unfold out0_6
  rw [View.canon_unit_zero off2]
  simp only [View.ld_unit_zero (S := S2000x128) off2, View.ld_unit_zero (S := S2000x1) off2,
    View.ld_unit_zero (S := S128x128) off2, View.ld_unit_zero (S := S128) off1]
  obtain ⟨e00, e01, e10, e11, e20, e21, e30, e31, e40, e50, e51, o60, o61, o70, o71⟩ := index_facts t
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (iblk0 V c 2 t) (iblk0 V c 3 t) (iblk0 V c 5 t) (iblk0 V c 4 t) (ix2 p q)
      = layerOf V c (((cfg0.win 6).blk t).view.emb (ix2 p q))
  refine (BlockEntry.pay0_apply (iblk0 V c 0 t) (iblk0 V c 1 t) (iblk0 V c 2 t) (iblk0 V c 3 t) (iblk0 V c 5 t) (iblk0 V c 4 t) p q).trans ?_
  refine BlockEntry.entry_eq_layer (iblk0 V c 0 t) (iblk0 V c 1 t) (iblk0 V c 2 t) (iblk0 V c 3 t) (iblk0 V c 5 t) (iblk0 V c 4 t)
    (V c (Pipeline.arrRef spec0 0)) (V c (Pipeline.arrRef spec0 1)) (V c (Pipeline.arrRef spec0 2))
    (V c (Pipeline.arrRef spec0 3)) (V c (Pipeline.arrRef spec0 4)) (V c (Pipeline.arrRef spec0 5)) zeroWord
    (((cfg0.win 6).blk t).view.emb (ix2 p q)) p q ?_ ?_ ?_ ?_ ?_ ?_
  · intro k
    show V c (Pipeline.arrRef spec0 0) (((cfg0.win 0).blk t).view.emb (ix2 p k)) = _
    refine congrArg _ (funext fun a => Fin.ext ?_)
    match a with
    | ⟨0, _⟩ => show win0_0.index t (0 : Fin 2) * 2000 + 1 * p.val = win0_6.index t (0 : Fin 2) * 2000 + 1 * p.val; omega
    | ⟨1, _⟩ => show win0_0.index t (1 : Fin 2) * 128 + 1 * k.val = k.val; omega
  · show V c (Pipeline.arrRef spec0 1) (((cfg0.win 1).blk t).view.emb (ix2 p (0 : Fin 1))) = _
    refine congrArg _ (funext fun a => Fin.ext ?_)
    match a with
    | ⟨0, _⟩ => show win0_1.index t (0 : Fin 2) * 2000 + 1 * p.val = win0_6.index t (0 : Fin 2) * 2000 + 1 * p.val; omega
    | ⟨1, _⟩ => show win0_1.index t (1 : Fin 2) * 1 + 1 * 0 = 0; omega
  · intro k
    show V c (Pipeline.arrRef spec0 2) (((cfg0.win 2).blk t).view.emb (ix2 p k)) = _
    refine congrArg _ (funext fun a => Fin.ext ?_)
    match a with
    | ⟨0, _⟩ => show win0_2.index t (0 : Fin 2) * 2000 + 1 * p.val = win0_6.index t (0 : Fin 2) * 2000 + 1 * p.val; omega
    | ⟨1, _⟩ => show win0_2.index t (1 : Fin 2) * 128 + 1 * k.val = k.val; omega
  · intro k
    show V c (Pipeline.arrRef spec0 3) (((cfg0.win 3).blk t).view.emb (ix2 k q)) = _
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * q.val = win0_6.index t (1 : Fin 2) * 128 + 1 * q.val; omega
  · show V c (Pipeline.arrRef spec0 4) (((cfg0.win 4).blk t).view.emb (ix1 q)) = _
    refine congrArg _ (funext fun a => Fin.ext ?_)
    match a with
    | ⟨0, _⟩ => show win0_4.index t (0 : Fin 1) * 128 + 1 * q.val = win0_6.index t (1 : Fin 2) * 128 + 1 * q.val; omega
  · intro k
    show V c (Pipeline.arrRef spec0 5) (((cfg0.win 5).blk t).view.emb (ix2 k q)) = _
    refine congrArg _ (funext fun a => Fin.ext ?_)
    match a with
    | ⟨0, _⟩ => show win0_5.index t (0 : Fin 2) * 128 + 1 * k.val = k.val; omega
    | ⟨1, _⟩ => show win0_5.index t (1 : Fin 2) * 128 + 1 * q.val = win0_6.index t (1 : Fin 2) * 128 + 1 * q.val; omega

/-- WHAT POINT `t` WRITES BACK through output window 7 is block `t` of the layer of the entry arrays. -/
theorem flushed7_eq (c : Dev nD) (t : Fin cfg0.N) :
    (dat0 V c).flushed 7 t = ((cfg0.win 7).blk t).view.read (Elt Ideal) (layerOf V c) := by
  show (cfg0.win 7).cut (grid0.coords t) ((dat0 V c).after 7 t) = _
  rw [after0_7]
  unfold out0_7
  rw [View.canon_unit_zero off2]
  simp only [View.ld_unit_zero (S := S2000x128) off2, View.ld_unit_zero (S := S2000x1) off2,
    View.ld_unit_zero (S := S128x128) off2, View.ld_unit_zero (S := S128) off1]
  obtain ⟨e00, e01, e10, e11, e20, e21, e30, e31, e40, e50, e51, o60, o61, o70, o71⟩ := index_facts t
  funext j
  obtain ⟨p, q, rfl⟩ : ∃ (p : Fin 2000) (q : Fin 128), j = ix2 p q := ⟨j 0, j 1, eq_ix2 j⟩
  show k0_pay2 (F := Ideal) (iblk0 V c 0 t) (iblk0 V c 1 t) (iblk0 V c 2 t) (iblk0 V c 3 t) (iblk0 V c 5 t) (iblk0 V c 4 t) (ix2 p q)
      = layerOf V c (((cfg0.win 7).blk t).view.emb (ix2 p q))
  refine (BlockEntry.pay0_narrow_apply (iblk0 V c 0 t) (iblk0 V c 1 t) (iblk0 V c 2 t) (iblk0 V c 3 t) (iblk0 V c 5 t) (iblk0 V c 4 t) p q).trans ?_
  refine BlockEntry.entry_eq_layer (iblk0 V c 0 t) (iblk0 V c 1 t) (iblk0 V c 2 t) (iblk0 V c 3 t) (iblk0 V c 5 t) (iblk0 V c 4 t)
    (V c (Pipeline.arrRef spec0 0)) (V c (Pipeline.arrRef spec0 1)) (V c (Pipeline.arrRef spec0 2))
    (V c (Pipeline.arrRef spec0 3)) (V c (Pipeline.arrRef spec0 4)) (V c (Pipeline.arrRef spec0 5)) zeroWord
    (((cfg0.win 7).blk t).view.emb (ix2 p q)) p q ?_ ?_ ?_ ?_ ?_ ?_
  · intro k
    show V c (Pipeline.arrRef spec0 0) (((cfg0.win 0).blk t).view.emb (ix2 p k)) = _
    refine congrArg _ (funext fun a => Fin.ext ?_)
    match a with
    | ⟨0, _⟩ => show win0_0.index t (0 : Fin 2) * 2000 + 1 * p.val = win0_7.index t (0 : Fin 2) * 2000 + 1 * p.val; omega
    | ⟨1, _⟩ => show win0_0.index t (1 : Fin 2) * 128 + 1 * k.val = k.val; omega
  · show V c (Pipeline.arrRef spec0 1) (((cfg0.win 1).blk t).view.emb (ix2 p (0 : Fin 1))) = _
    refine congrArg _ (funext fun a => Fin.ext ?_)
    match a with
    | ⟨0, _⟩ => show win0_1.index t (0 : Fin 2) * 2000 + 1 * p.val = win0_7.index t (0 : Fin 2) * 2000 + 1 * p.val; omega
    | ⟨1, _⟩ => show win0_1.index t (1 : Fin 2) * 1 + 1 * 0 = 0; omega
  · intro k
    show V c (Pipeline.arrRef spec0 2) (((cfg0.win 2).blk t).view.emb (ix2 p k)) = _
    refine congrArg _ (funext fun a => Fin.ext ?_)
    match a with
    | ⟨0, _⟩ => show win0_2.index t (0 : Fin 2) * 2000 + 1 * p.val = win0_7.index t (0 : Fin 2) * 2000 + 1 * p.val; omega
    | ⟨1, _⟩ => show win0_2.index t (1 : Fin 2) * 128 + 1 * k.val = k.val; omega
  · intro k
    show V c (Pipeline.arrRef spec0 3) (((cfg0.win 3).blk t).view.emb (ix2 k q)) = _
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * q.val = win0_7.index t (1 : Fin 2) * 128 + 1 * q.val; omega
  · show V c (Pipeline.arrRef spec0 4) (((cfg0.win 4).blk t).view.emb (ix1 q)) = _
    refine congrArg _ (funext fun a => Fin.ext ?_)
    match a with
    | ⟨0, _⟩ => show win0_4.index t (0 : Fin 1) * 128 + 1 * q.val = win0_7.index t (1 : Fin 2) * 128 + 1 * q.val; omega
  · intro k
    show V c (Pipeline.arrRef spec0 5) (((cfg0.win 5).blk t).view.emb (ix2 k q)) = _
    refine congrArg _ (funext fun a => Fin.ext ?_)
    match a with
    | ⟨0, _⟩ => show win0_5.index t (0 : Fin 2) * 128 + 1 * k.val = k.val; omega
    | ⟨1, _⟩ => show win0_5.index t (1 : Fin 2) * 128 + 1 * q.val = win0_7.index t (1 : Fin 2) * 128 + 1 * q.val; omega

/-- An index of the array is in point `t`'s block of output window 6 iff each coordinate is in the block's range. -/
theorem mem_blk6 (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v24_0).slice (win0_6.rect t)).set ↔ _
  rw [View.set_slice_whole, Rect.mem_set_unit]
  exact Iff.rfl

/-- The 25 blocks of 2000 rows tile the 50000 rows: row r lies in the block of point r / 2000. -/
theorem cover6 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 25 := points
  have hlt : (i 0).val / 2000 < cfg0.N := by rw [hN]; omega
  obtain ⟨e00, e01, e10, e11, e20, e21, e30, e31, e40, e50, e51, o60, o61, o70, o71⟩ := index_facts ⟨(i 0).val / 2000, hlt⟩
  refine ⟨⟨(i 0).val / 2000, hlt⟩, flush0_6 _, ?_⟩
  rw [mem_blk6]
  intro a
  match a with
  | ⟨0, _⟩ =>
    show win0_6.index ⟨(i 0).val / 2000, hlt⟩ (0 : Fin 2) * 2000 ≤ (i 0).val ∧ (i 0).val < win0_6.index ⟨(i 0).val / 2000, hlt⟩ (0 : Fin 2) * 2000 + 2000
    rw [o60]
    show (i 0).val / 2000 * 2000 ≤ (i 0).val ∧ (i 0).val < (i 0).val / 2000 * 2000 + 2000
    omega
  | ⟨1, _⟩ =>
    show win0_6.index ⟨(i 0).val / 2000, hlt⟩ (1 : Fin 2) * 128 ≤ (i 1).val ∧ (i 1).val < win0_6.index ⟨(i 0).val / 2000, hlt⟩ (1 : Fin 2) * 128 + 128
    rw [o61]
    omega

/-- THE ARRAY of output window 6 after the call: the layer of the entry arrays. -/
theorem final6 (c : Dev nD) : (dat0 V c).arrAt 6 cfg0.N = layerOf V c :=
  (dat0 V c).arrAt_eq_of_cover 6 (layerOf V c) (fun t _ => flushed6_eq V c t) cover6

/-- An index of the array is in point `t`'s block of output window 7 iff each coordinate is in the block's range. -/
theorem mem_blk7 (t : Fin cfg0.N) (i : S50000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v24_1).slice (win0_7.rect t)).set ↔ _
  rw [View.set_slice_whole, Rect.mem_set_unit]
  exact Iff.rfl

/-- The 25 blocks of 2000 rows tile the 50000 rows: row r lies in the block of point r / 2000. -/
theorem cover7 (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  have hN : cfg0.N = 25 := points
  have hlt : (i 0).val / 2000 < cfg0.N := by rw [hN]; omega
  obtain ⟨e00, e01, e10, e11, e20, e21, e30, e31, e40, e50, e51, o60, o61, o70, o71⟩ := index_facts ⟨(i 0).val / 2000, hlt⟩
  refine ⟨⟨(i 0).val / 2000, hlt⟩, flush0_7 _, ?_⟩
  rw [mem_blk7]
  intro a
  match a with
  | ⟨0, _⟩ =>
    show win0_7.index ⟨(i 0).val / 2000, hlt⟩ (0 : Fin 2) * 2000 ≤ (i 0).val ∧ (i 0).val < win0_7.index ⟨(i 0).val / 2000, hlt⟩ (0 : Fin 2) * 2000 + 2000
    rw [o70]
    show (i 0).val / 2000 * 2000 ≤ (i 0).val ∧ (i 0).val < (i 0).val / 2000 * 2000 + 2000
    omega
  | ⟨1, _⟩ =>
    show win0_7.index ⟨(i 0).val / 2000, hlt⟩ (1 : Fin 2) * 128 ≤ (i 1).val ∧ (i 1).val < win0_7.index ⟨(i 0).val / 2000, hlt⟩ (1 : Fin 2) * 128 + 128
    rw [o71]
    omega

/-- THE ARRAY of output window 7 after the call: the layer of the entry arrays. -/
theorem final7 (c : Dev nD) : (dat0 V c).arrAt 7 cfg0.N = layerOf V c :=
  (dat0 V c).arrAt_eq_of_cover 7 (layerOf V c) (fun t _ => flushed7_eq V c t) cover7

end Cert.KernelIdeal.CallZero

end
-- ==== Proof.CallOne.lean ====
/-
  What call 1 leaves in its output array, as one function of the arrays the call finds on entry.

  The call's grid has 25 points; point t works on rows 2000·t … 2000·t + 1999: its three row operands (summed messages,
  reciprocal column, node features) and its output block all sit at block row t, the two weight matrices and the bias are
  fetched whole. So what point t writes back is rows 2000·t … of the whole layer `SageLayer.layerMul` of the entry arrays,
  the 25 blocks tile the 50000 rows (row r lies in block r / 2000), and the array after the call is the layer.
-/
import proofs.«172372_j22170621182211_2_alg».proof.Proof.Gen.KernelIdeal.Frame
import proofs.«172372_j22170621182211_2_alg».proof.Proof.BlockEntry
import Idealize.ShloMosaic.Lib.Pipeline.Value

set_option maxRecDepth 16384

noncomputable section

namespace Cert.KernelIdeal.CallOne

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem off2 : (![0, 0] : Fin 2 → Nat) = fun _ => 0 := funext fun a => by fin_cases a <;> rfl
theorem off1 : (![0] : Fin 1 → Nat) = fun _ => 0 := funext fun a => by fin_cases a <;> rfl

/-- The floor of the activation: the float word of zero, kept as a word. -/
abbrev zeroWord : EReal := Ideal.ofBits .f32 0x00000000#32

/-- The layer of the arrays as the call finds them. -/
abbrev layerOf (c : Dev nD) : (⟨2, ![50000, 128]⟩ : Shape).Idx → EReal :=
  SageLayer.layerMul (N := 50000) (D := 128) (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5)) zeroWord

/-- The printed index maps over the grid: the row operands and the output at the point's own block row, column block
    0; the weights and the bias at block 0. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem points : cfg1.N = 25 := N_1

/-- WHAT POINT `t` WRITES BACK through output window 6 is block `t` of the layer of the entry arrays. -/
theorem flushed6_eq (c : Dev nD) (t : Fin cfg1.N) :
    (dat1 V c).flushed 6 t = ((cfg1.win 6).blk t).view.read (Elt Ideal) (layerOf V c) := by
  show (cfg1.win 6).cut (grid1.coords t) ((dat1 V c).after 6 t) = _
  rw [after1_6]
  unfold out1_6
  rw [View.canon_unit_zero off2]
  simp only [View.ld_unit_zero (S := S2000x128) off2, View.ld_unit_zero (S := S2000x1) off2,
    View.ld_unit_zero (S := S128x128) off2, View.ld_unit_zero (S := S128) off1]
  obtain ⟨e00, e01, e10, e11, e20, e21, e30, e31, e40, e50, e51, o60, o61⟩ := index_facts t
  funext j
  obtain ⟨p, q, rfl⟩ : ∃ (p : Fin 2000) (q : Fin 128), j = ix2 p q := ⟨j 0, j 1, eq_ix2 j⟩
  show k1_pay1 (F := Ideal) (iblk1 V c 0 t) (iblk1 V c 1 t) (iblk1 V c 2 t) (iblk1 V c 3 t) (iblk1 V c 5 t) (iblk1 V c 4 t) (ix2 p q)
      = layerOf V c (((cfg1.win 6).blk t).view.emb (ix2 p q))
  refine (BlockEntry.pay1_apply (iblk1 V c 0 t) (iblk1 V c 1 t) (iblk1 V c 2 t) (iblk1 V c 3 t) (iblk1 V c 5 t) (iblk1 V c 4 t) p q).trans ?_
  refine BlockEntry.entry_eq_layer (iblk1 V c 0 t) (iblk1 V c 1 t) (iblk1 V c 2 t) (iblk1 V c 3 t) (iblk1 V c 5 t) (iblk1 V c 4 t)
    (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5)) zeroWord
    (((cfg1.win 6).blk t).view.emb (ix2 p q)) p q ?_ ?_ ?_ ?_ ?_ ?_
  · intro k
    show V c (Pipeline.arrRef spec1 0) (((cfg1.win 0).blk t).view.emb (ix2 p k)) = _
    refine congrArg _ (funext fun a => Fin.ext ?_)
    match a with
    | ⟨0, _⟩ => show win1_0.index t (0 : Fin 2) * 2000 + 1 * p.val = win1_6.index t (0 : Fin 2) * 2000 + 1 * p.val; omega
    | ⟨1, _⟩ => show win1_0.index t (1 : Fin 2) * 128 + 1 * k.val = k.val; omega
  · show V c (Pipeline.arrRef spec1 1) (((cfg1.win 1).blk t).view.emb (ix2 p (0 : Fin 1))) = _
    refine congrArg _ (funext fun a => Fin.ext ?_)
    match a with
    | ⟨0, _⟩ => show win1_1.index t (0 : Fin 2) * 2000 + 1 * p.val = win1_6.index t (0 : Fin 2) * 2000 + 1 * p.val; omega
    | ⟨1, _⟩ => show win1_1.index t (1 : Fin 2) * 1 + 1 * 0 = 0; omega
  · intro k
    show V c (Pipeline.arrRef spec1 2) (((cfg1.win 2).blk t).view.emb (ix2 p k)) = _
    refine congrArg _ (funext fun a => Fin.ext ?_)
    match a with
    | ⟨0, _⟩ => show win1_2.index t (0 : Fin 2) * 2000 + 1 * p.val = win1_6.index t (0 : Fin 2) * 2000 + 1 * p.val; omega
    | ⟨1, _⟩ => show win1_2.index t (1 : Fin 2) * 128 + 1 * k.val = k.val; omega
  · intro k
    show V c (Pipeline.arrRef spec1 3) (((cfg1.win 3).blk t).view.emb (ix2 k q)) = _
    refine congrArg _ (funext fun a => Fin.ext ?_)
    match a with
    | ⟨0, _⟩ => show win1_3.index t (0 : Fin 2) * 128 + 1 * k.val = k.val; omega
    | ⟨1, _⟩ => show win1_3.index t (1 : Fin 2) * 128 + 1 * q.val = win1_6.index t (1 : Fin 2) * 128 + 1 * q.val; omega
  · show V c (Pipeline.arrRef spec1 4) (((cfg1.win 4).blk t).view.emb (ix1 q)) = _
    refine congrArg _ (funext fun a => Fin.ext ?_)
    match a with
    | ⟨0, _⟩ => show win1_4.index t (0 : Fin 1) * 128 + 1 * q.val = win1_6.index t (1 : Fin 2) * 128 + 1 * q.val; omega
  · intro k
    show V c (Pipeline.arrRef spec1 5) (((cfg1.win 5).blk t).view.emb (ix2 k q)) = _
    refine congrArg _ (funext fun a => Fin.ext ?_)
    match a with
    | ⟨0, _⟩ => show win1_5.index t (0 : Fin 2) * 128 + 1 * k.val = k.val; omega
    | ⟨1, _⟩ => show win1_5.index t (1 : Fin 2) * 128 + 1 * q.val = win1_6.index t (1 : Fin 2) * 128 + 1 * q.val; omega

/-- An index of the array is in point `t`'s block of output window 6 iff each coordinate is in the block's range. -/
theorem mem_blk6 (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v36).slice (win1_6.rect t)).set ↔ _
  rw [View.set_slice_whole, Rect.mem_set_unit]
  exact Iff.rfl

/-- The 25 blocks of 2000 rows tile the 50000 rows: row r lies in the block of point r / 2000. -/
theorem cover6 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 25 := points
  have hlt : (i 0).val / 2000 < cfg1.N := by rw [hN]; omega
  obtain ⟨e00, e01, e10, e11, e20, e21, e30, e31, e40, e50, e51, o60, o61⟩ := index_facts ⟨(i 0).val / 2000, hlt⟩
  refine ⟨⟨(i 0).val / 2000, hlt⟩, flush1_6 _, ?_⟩
  rw [mem_blk6]
  intro a
  match a with
  | ⟨0, _⟩ =>
    show win1_6.index ⟨(i 0).val / 2000, hlt⟩ (0 : Fin 2) * 2000 ≤ (i 0).val ∧ (i 0).val < win1_6.index ⟨(i 0).val / 2000, hlt⟩ (0 : Fin 2) * 2000 + 2000
    rw [o60]
    show (i 0).val / 2000 * 2000 ≤ (i 0).val ∧ (i 0).val < (i 0).val / 2000 * 2000 + 2000
    omega
  | ⟨1, _⟩ =>
    show win1_6.index ⟨(i 0).val / 2000, hlt⟩ (1 : Fin 2) * 128 ≤ (i 1).val ∧ (i 1).val < win1_6.index ⟨(i 0).val / 2000, hlt⟩ (1 : Fin 2) * 128 + 128
    rw [o61]
    omega

/-- THE ARRAY of output window 6 after the call: the layer of the entry arrays. -/
theorem final6 (c : Dev nD) : (dat1 V c).arrAt 6 cfg1.N = layerOf V c :=
  (dat1 V c).arrAt_eq_of_cover 6 (layerOf V c) (fun t _ => flushed6_eq V c t) cover6

end Cert.KernelIdeal.CallOne

end
-- ==== Proof.KernelTerms.lean ====
/-
  The kernel program's host-side functions and its result, as functions of the arguments.

  With `e` the edge array [2, 800000] (row 0 the source node of each edge, row 1 its target), `x` the node features
  and (Wl₁, bl₁, Wr₁), (Wl₂, bl₂, Wr₂) the two layers' parameters, the program computes, on the host,
    • the target column and the source column (a negative source index wrapped by the node count),
    • the reciprocal column  recip(r) = 1 / max(count(r), 1),  count(r) the number of edges with target r (a scatter-add of
      ones),
    • for a feature matrix h the summed messages  gatherSum h = scatter-add over the targets of the rows of h gathered
      at the sources (the gathered copy is in a shorter float format and widened again: the identity on exact values),
  and then  hidden = layer(gatherSum x, recip, x; Wl₁, bl₁, Wr₁)  in the first call and
  result = layer(gatherSum hidden, recip, hidden; Wl₂, bl₂, Wr₂)  in the second, `layer` being `SageLayer.layerMul`
  with the floor at the zero word.
-/
import proofs.«172372_j22170621182211_2_alg».proof.KernelIdeal
import proofs.«172372_j22170621182211_2_alg».proof.Proof.Gen.KernelIdeal
import proofs.«172372_j22170621182211_2_alg».proof.Proof.SageLayer
import Idealize.ShloMosaic.PureOps.Ideal
import Idealize.ShloMosaic.Lib.IdealHost

noncomputable section

namespace Cert.KernelIdeal.Whole

open Cert.KernelIdeal Cert.KernelIdeal.Gen
open Idealize.ShloMosaic Idealize.ShloMosaic.TcCoe

/-! ## The host-side functions -/

section Terms

variable (e : (⟨S2x800000, .i32⟩ : BufTy).Contents (Elt Ideal))

/-- The source node of each edge: row 0 of the edge array. -/
def srcIdx : IVec S800000 32 :=
  shapeCast S800000 (extractStridedSlice S1x800000 ![0, 0] e slices_S2x800000_S1x800000_0_0) shapeCasts_S1x800000_S800000

/-- The target node of each edge: row 1 of the edge array. -/
def dstIdx : IVec S800000 32 :=
  shapeCast S800000 (extractStridedSlice S1x800000 ![1, 0] e slices_S2x800000_S1x800000_1_0) shapeCasts_S1x800000_S800000

/-- The source indices as a column, a negative index wrapped by the node count. -/
def srcCol : IVec S800000x1 32 :=
  broadcastInDim S800000x1 ![0] bcast_S800000_S800000x1_0
    (select (cmpi .slt (srcIdx e) (broadcastInDim S800000 ![] bcast_S_S800000 (constantI S_ 32 0#32)))
      (addi (srcIdx e) (broadcastInDim S800000 ![] bcast_S_S800000 (constantI S_ 32 50000#32))) (srcIdx e))

/-- The target indices as a column. -/
def dstCol : IVec S800000x1 32 := broadcastInDim S800000x1 ![0] bcast_S800000_S800000x1_0 (dstIdx e)

/-- The number of edges into each node, floored at one. -/
def countFloor : FVec Ideal S50000x1 .f32 :=
  maximumf
    (Host.scatterAdd scatter_S50000x1_S800000x1_S800000x1_1_0_0_1
      (broadcastInDim S50000x1 ![] bcast_S_S50000x1 (constant (F := Ideal) S_ .f32 0x00000000#32)) (dstCol e)
      (broadcastInDim S800000x1 ![] bcast_S_S800000x1 (constant (F := Ideal) S_ .f32 0x3F800000#32)))
    (broadcastInDim S50000x1 ![] bcast_S_S50000x1 (constant (F := Ideal) S_ .f32 0x3F800000#32))

/-- The reciprocal of the floored count. -/
def recip : FVec Ideal S50000x1 .f32 :=
  Host.divf (broadcastInDim S50000x1 ![] bcast_S_S50000x1 (constant (F := Ideal) S_ .f32 0x3F800000#32)) (countFloor e)

/-- The reciprocal column entry by entry: the word of one divided by the floored count. -/
theorem recip_apply (i : S50000x1.Idx) :
    recip e i = Ideal.div (Ideal.ofBits .f32 0x3F800000#32) (countFloor e i) := by
  unfold recip
  rw [ValueIdx.hostDivf_apply, ValueIdx.broadcastInDim_scalar_apply]
  rfl

/-- The summed messages of a feature matrix: its rows gathered at the sources, added up at the targets. -/
def gatherSum (h : S50000x128.Idx → EReal) : FVec Ideal S50000x128 .f32 :=
  Host.scatterAdd scatter_S50000x128_S800000x1_S800000x128_1_0_0_1
    (broadcastInDim S50000x128 ![] bcast_S_S50000x128 (constant (F := Ideal) S_ .f32 0x00000000#32)) (dstCol e)
    (extf (F := Ideal) .f32
      (Host.gather gather_S50000x128_S800000x1_S800000x128_1_0_n_n_0_1_1128 (h : FVec Ideal S50000x128 .bf16) (srcCol e)) bitsLt_bf16_f32)

/-- The floor of the activation: the float word of zero, kept as a word. -/
abbrev zeroWord : EReal := Ideal.ofBits .f32 0x00000000#32

/-- The first layer's output. -/
def hidden (x : S50000x128.Idx → EReal) (Wl1 : S128x128.Idx → EReal) (bl1 : S128.Idx → EReal) (Wr1 : S128x128.Idx → EReal) :
    S50000x128.Idx → EReal :=
  SageLayer.layerMul (N := 50000) (D := 128) (gatherSum e x) (recip e) x Wl1 bl1 Wr1 zeroWord

/-- The program's result: the second layer of the first layer's output. -/
def result (x : S50000x128.Idx → EReal) (Wl1 : S128x128.Idx → EReal) (bl1 : S128.Idx → EReal) (Wr1 : S128x128.Idx → EReal)
    (Wl2 : S128x128.Idx → EReal) (bl2 : S128.Idx → EReal) (Wr2 : S128x128.Idx → EReal) : S50000x128.Idx → EReal :=
  SageLayer.layerMul (N := 50000) (D := 128) (gatherSum e (hidden e x Wl1 bl1 Wr1)) (recip e) (hidden e x Wl1 bl1 Wr1)
    Wl2 bl2 Wr2 zeroWord

end Terms

end Cert.KernelIdeal.Whole

end
-- ==== Proof.KernelWhole.lean ====
/-
  The kernel program's result buffer, followed back to the arguments.

  The buffer contents at the program's boundaries are `W1` (after the first stretch of host operations), `W2` (after the
  first call), `W3` (after the second stretch), `W4` (after the second call). Each buffer a call reads is followed back
  through them to the launch memory: a buffer no operation of a stretch writes keeps its contents, a stretch's result is
  its operations' function of what it read, a call's input arrays are as entered, and a call's output arrays are the
  layer of its entry arrays. The host-side functions and the two layers are named in the module of the program's terms;
  the result buffer at `W4` is `result` of the eight arguments.
-/
import proofs.«172372_j22170621182211_2_alg».proof.Proof.KernelRun
import proofs.«172372_j22170621182211_2_alg».proof.Proof.CallZero
import proofs.«172372_j22170621182211_2_alg».proof.Proof.CallOne
import proofs.«172372_j22170621182211_2_alg».proof.Proof.KernelTerms
import Idealize.ShloMosaic.PureOps.Ideal
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

/-! ## The boundary contents, buffer by buffer -/

section Chain

variable (m : (ℓ : Loc nD τ sig) → Buf (Elt Ideal) ℓ) (ρ : Dev nD → PrngReg) (c : Dev nD)

/-! ### After the first stretch of host operations -/

theorem W1_v1 : W1 m ρ c (Proc.devRef .tc main_v1) = srcIdx (m ((c : Thread nD τ).loc main_arg1)) := by
  show StableHlo.after hostOps0 (W0 m ρ c) (Proc.devRef .tc main_v1) = _
  after_results
  rfl

theorem W1_v3 : W1 m ρ c (Proc.devRef .tc main_v3) = dstIdx (m ((c : Thread nD τ).loc main_arg1)) := by
  show StableHlo.after hostOps0 (W0 m ρ c) (Proc.devRef .tc main_v3) = _
  after_results
  rfl

theorem W1_v11 : W1 m ρ c (Proc.devRef .tc main_v11) = recip (m ((c : Thread nD τ).loc main_arg1)) := by
  show StableHlo.after hostOps0 (W0 m ρ c) (Proc.devRef .tc main_v11) = _
  after_results
  rfl

set_option maxHeartbeats 4000000 in
theorem W1_v23 : W1 m ρ c (Proc.devRef .tc main_v23)
    = gatherSum (m ((c : Thread nD τ).loc main_arg1)) (m ((c : Thread nD τ).loc main_arg0)) := by
  show StableHlo.after hostOps0 (W0 m ρ c) (Proc.devRef .tc main_v23) = _
  after_results
  rfl

set_option maxHeartbeats 4000000 in
theorem W1_arg0 : W1 m ρ c (Proc.devRef .tc main_arg0) = m ((c : Thread nD τ).loc main_arg0) := by
  show StableHlo.after hostOps0 (W0 m ρ c) (Proc.devRef .tc main_arg0) = _
  after_results

set_option maxHeartbeats 4000000 in
theorem W1_arg2 : W1 m ρ c (Proc.devRef .tc main_arg2) = m ((c : Thread nD τ).loc main_arg2) := by
  show StableHlo.after hostOps0 (W0 m ρ c) (Proc.devRef .tc main_arg2) = _
  after_results

set_option maxHeartbeats 4000000 in
theorem W1_arg3 : W1 m ρ c (Proc.devRef .tc main_arg3) = m ((c : Thread nD τ).loc main_arg3) := by
  show StableHlo.after hostOps0 (W0 m ρ c) (Proc.devRef .tc main_arg3) = _
  after_results

set_option maxHeartbeats 4000000 in
theorem W1_arg4 : W1 m ρ c (Proc.devRef .tc main_arg4) = m ((c : Thread nD τ).loc main_arg4) := by
  show StableHlo.after hostOps0 (W0 m ρ c) (Proc.devRef .tc main_arg4) = _
  after_results

set_option maxHeartbeats 4000000 in
theorem W1_arg5 : W1 m ρ c (Proc.devRef .tc main_arg5) = m ((c : Thread nD τ).loc main_arg5) := by
  show StableHlo.after hostOps0 (W0 m ρ c) (Proc.devRef .tc main_arg5) = _
  after_results

set_option maxHeartbeats 4000000 in
theorem W1_arg6 : W1 m ρ c (Proc.devRef .tc main_arg6) = m ((c : Thread nD τ).loc main_arg6) := by
  show StableHlo.after hostOps0 (W0 m ρ c) (Proc.devRef .tc main_arg6) = _
  after_results

set_option maxHeartbeats 4000000 in
theorem W1_arg7 : W1 m ρ c (Proc.devRef .tc main_arg7) = m ((c : Thread nD τ).loc main_arg7) := by
  show StableHlo.after hostOps0 (W0 m ρ c) (Proc.devRef .tc main_arg7) = _
  after_results

/-! ### After the first call: its inputs as entered, its two outputs the first layer -/

theorem W2_v1 : W2 m ρ c (Proc.devRef .tc main_v1) = srcIdx (m ((c : Thread nD τ).loc main_arg1)) :=
  (W2_of_ne m ρ c main_v1 (by decide)).trans (W1_v1 m ρ c)

theorem W2_v3 : W2 m ρ c (Proc.devRef .tc main_v3) = dstIdx (m ((c : Thread nD τ).loc main_arg1)) :=
  (W2_of_ne m ρ c main_v3 (by decide)).trans (W1_v3 m ρ c)

theorem W2_arg5 : W2 m ρ c (Proc.devRef .tc main_arg5) = m ((c : Thread nD τ).loc main_arg5) :=
  (W2_of_ne m ρ c main_arg5 (by decide)).trans (W1_arg5 m ρ c)

theorem W2_arg6 : W2 m ρ c (Proc.devRef .tc main_arg6) = m ((c : Thread nD τ).loc main_arg6) :=
  (W2_of_ne m ρ c main_arg6 (by decide)).trans (W1_arg6 m ρ c)

theorem W2_arg7 : W2 m ρ c (Proc.devRef .tc main_arg7) = m ((c : Thread nD τ).loc main_arg7) :=
  (W2_of_ne m ρ c main_arg7 (by decide)).trans (W1_arg7 m ρ c)

theorem W2_v11 : W2 m ρ c (Proc.devRef .tc main_v11) = recip (m ((c : Thread nD τ).loc main_arg1)) :=
  (W2_arr m ρ c 1).trans (((dat0 (V1 m ρ) c).arrAt_in 1 rfl _).trans ((A_eq0 (V1 m ρ) c 1).trans (W1_v11 m ρ c)))

/-- The layer of the first call's entry arrays is the first layer of the arguments. -/
theorem entry_layer0 : CallZero.layerOf (V1 m ρ) c = (hidden (m ((c : Thread nD τ).loc main_arg1)) (m ((c : Thread nD τ).loc main_arg0)) (m ((c : Thread nD τ).loc main_arg2)) (m ((c : Thread nD τ).loc main_arg3)) (m ((c : Thread nD τ).loc main_arg4))) := by
  show SageLayer.layerMul (N := 50000) (D := 128) (W1 m ρ c (Proc.devRef .tc main_v23)) (W1 m ρ c (Proc.devRef .tc main_v11))
    (W1 m ρ c (Proc.devRef .tc main_arg0)) (W1 m ρ c (Proc.devRef .tc main_arg2)) (W1 m ρ c (Proc.devRef .tc main_arg3))
    (W1 m ρ c (Proc.devRef .tc main_arg4)) CallZero.zeroWord = _
  rw [W1_v23, W1_v11, W1_arg0, W1_arg2, W1_arg3, W1_arg4]
  rfl

theorem W2_v24_0 : W2 m ρ c (Proc.devRef .tc main_v24_0) = (hidden (m ((c : Thread nD τ).loc main_arg1)) (m ((c : Thread nD τ).loc main_arg0)) (m ((c : Thread nD τ).loc main_arg2)) (m ((c : Thread nD τ).loc main_arg3)) (m ((c : Thread nD τ).loc main_arg4))) :=
  (W2_arr m ρ c 6).trans ((CallZero.final6 (V1 m ρ) c).trans (entry_layer0 m ρ c))

theorem W2_v24_1 : W2 m ρ c (Proc.devRef .tc main_v24_1) = (hidden (m ((c : Thread nD τ).loc main_arg1)) (m ((c : Thread nD τ).loc main_arg0)) (m ((c : Thread nD τ).loc main_arg2)) (m ((c : Thread nD τ).loc main_arg3)) (m ((c : Thread nD τ).loc main_arg4))) :=
  (W2_arr m ρ c 7).trans ((CallZero.final7 (V1 m ρ) c).trans (entry_layer0 m ρ c))

/-! ### After the second stretch of host operations -/

theorem W3_v35 : W3 m ρ c (Proc.devRef .tc main_v35) = gatherSum (m ((c : Thread nD τ).loc main_arg1)) (hidden (m ((c : Thread nD τ).loc main_arg1)) (m ((c : Thread nD τ).loc main_arg0)) (m ((c : Thread nD τ).loc main_arg2)) (m ((c : Thread nD τ).loc main_arg3)) (m ((c : Thread nD τ).loc main_arg4))) := by
  show StableHlo.after hostOps1 (W2 m ρ c) (Proc.devRef .tc main_v35) = _
  after_results
  rw [W2_v3, W2_v1, W2_v24_1]
  rfl

theorem W3_v11 : W3 m ρ c (Proc.devRef .tc main_v11) = recip (m ((c : Thread nD τ).loc main_arg1)) := by
  show StableHlo.after hostOps1 (W2 m ρ c) (Proc.devRef .tc main_v11) = _
  after_results
  exact W2_v11 m ρ c

theorem W3_v24_0 : W3 m ρ c (Proc.devRef .tc main_v24_0) = (hidden (m ((c : Thread nD τ).loc main_arg1)) (m ((c : Thread nD τ).loc main_arg0)) (m ((c : Thread nD τ).loc main_arg2)) (m ((c : Thread nD τ).loc main_arg3)) (m ((c : Thread nD τ).loc main_arg4))) := by
  show StableHlo.after hostOps1 (W2 m ρ c) (Proc.devRef .tc main_v24_0) = _
  after_results
  exact W2_v24_0 m ρ c

theorem W3_arg5 : W3 m ρ c (Proc.devRef .tc main_arg5) = m ((c : Thread nD τ).loc main_arg5) := by
  show StableHlo.after hostOps1 (W2 m ρ c) (Proc.devRef .tc main_arg5) = _
  after_results
  exact W2_arg5 m ρ c

theorem W3_arg6 : W3 m ρ c (Proc.devRef .tc main_arg6) = m ((c : Thread nD τ).loc main_arg6) := by
  show StableHlo.after hostOps1 (W2 m ρ c) (Proc.devRef .tc main_arg6) = _
  after_results
  exact W2_arg6 m ρ c

theorem W3_arg7 : W3 m ρ c (Proc.devRef .tc main_arg7) = m ((c : Thread nD τ).loc main_arg7) := by
  show StableHlo.after hostOps1 (W2 m ρ c) (Proc.devRef .tc main_arg7) = _
  after_results
  exact W2_arg7 m ρ c

/-! ### After the second call -/

/-- THE RESULT BUFFER at the last boundary is the two layers of the arguments. -/
theorem W4_result : W4 m ρ c (Proc.devRef .tc main_v36)
    = result (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 6).trans ((CallOne.final6 (V3 m ρ) c).trans ?_)
  show SageLayer.layerMul (N := 50000) (D := 128) (W3 m ρ c (Proc.devRef .tc main_v35)) (W3 m ρ c (Proc.devRef .tc main_v11))
    (W3 m ρ c (Proc.devRef .tc main_v24_0)) (W3 m ρ c (Proc.devRef .tc main_arg5)) (W3 m ρ c (Proc.devRef .tc main_arg6))
    (W3 m ρ c (Proc.devRef .tc main_arg7)) CallOne.zeroWord = _
  rw [W3_v35, W3_v11, W3_v24_0, W3_arg5, W3_arg6, W3_arg7]
  rfl

end Chain

end Cert.KernelIdeal.Whole

end
-- ==== Proof.RefLayers.lean ====
/-
  The reference program, layer by layer.

  The reference is two mean-aggregation graph layers. In each, the summed neighbour messages [50000, 128] are divided
  entry by entry by the neighbour count of the row floored at one, the quotient is multiplied with a weight matrix,
  a bias row is added, the node features times a second weight matrix are added, and the result is floored at zero.

  Read back one operation at a time, the stage that closes a layer is, at the entry (r, q),

      max( Σ_k (msg(r,k) / c(r)) · Wl(k,q) + bl(q) + Σ_k h(r,k) · Wr(k,q),  0 ),

  which is the specification's layer (SageLayer.layerDiv) of the stage holding the summed messages, the stage holding the
  floored counts, the layer's input features and its three parameters. The second layer's floored counts are the same
  stage expression as the first layer's, and a count floored at one is never zero: max x 1 ≥ 1 > 0.
-/
import proofs.«172372_j22170621182211_2_alg».proof.Proof.Gen.ReferenceIdeal.Read
import proofs.«172372_j22170621182211_2_alg».proof.Proof.SageLayer
import Idealize.ShloMosaic.Lib.ValueIdx
import Idealize.ShloMosaic.PureOps.Ideal

noncomputable section

namespace Cert.ReferenceIdeal.RefValue

open Cert.ReferenceIdeal Cert.ReferenceIdeal.Read Idealize.ShloMosaic Idealize.ShloMosaic.ValueIdx

/-- The single-precision word 0x3F800000 (sign 0, biased exponent 127, fraction 0) denotes the real number one. -/
theorem ofBits_one : Ideal.ofBits .f32 0x3F800000#32 = 1 := by
  simp [Ideal.ofBits, Ideal.ieee, -EReal.coe_mul]; norm_num

/-- The specification's layer at the entry (p, q), with the coordinates of the index computed. -/
theorem layerDiv_ix2 {N D : ℕ} (msg : (⟨2, ![N, D]⟩ : Shape).Idx → EReal) (c : (⟨2, ![N, 1]⟩ : Shape).Idx → EReal)
    (h : (⟨2, ![N, D]⟩ : Shape).Idx → EReal) (Wl : (⟨2, ![D, D]⟩ : Shape).Idx → EReal)
    (bl : (⟨1, ![D]⟩ : Shape).Idx → EReal) (Wr : (⟨2, ![D, D]⟩ : Shape).Idx → EReal) (z : EReal)
    (p : Fin N) (q : Fin D) :
    SageLayer.layerDiv msg c h Wl bl Wr z (ix2 p q)
      = max (((∑ k : Fin D, Ideal.div (msg (ix2 p k)) (c (ix2 p (0 : Fin 1))) * Wl (ix2 k q)) + bl (ix1 q))
          + ∑ k : Fin D, h (ix2 p k) * Wr (ix2 k q)) z := rfl

/-! ### Where each stage reads its operands

At the entry (p, q) and the term k, a row-by-column product reads its left operand at (p, k) and its right operand at
(k, q); a column stretched along the features is read at (p, 0); a row stretched along the nodes is read at q. -/

theorem lidx22_eq (p : Fin 50000) (q k : Fin 128) : lidx_main_v22 (ix2 p q) k = ix2 p k :=
  funext fun a => Fin.ext (by match a with | ⟨0, _⟩ => rfl | ⟨1, _⟩ => rfl)
theorem ridx22_eq (p : Fin 50000) (q k : Fin 128) : ridx_main_v22 (ix2 p q) k = ix2 k q :=
  funext fun a => Fin.ext (by match a with | ⟨0, _⟩ => rfl | ⟨1, _⟩ => rfl)
theorem lidx26_eq (p : Fin 50000) (q k : Fin 128) : lidx_main_v26 (ix2 p q) k = ix2 p k :=
  funext fun a => Fin.ext (by match a with | ⟨0, _⟩ => rfl | ⟨1, _⟩ => rfl)
theorem ridx26_eq (p : Fin 50000) (q k : Fin 128) : ridx_main_v26 (ix2 p q) k = ix2 k q :=
  funext fun a => Fin.ext (by match a with | ⟨0, _⟩ => rfl | ⟨1, _⟩ => rfl)
theorem lidx47_eq (p : Fin 50000) (q k : Fin 128) : lidx_main_v47 (ix2 p q) k = ix2 p k :=
  funext fun a => Fin.ext (by match a with | ⟨0, _⟩ => rfl | ⟨1, _⟩ => rfl)
theorem ridx47_eq (p : Fin 50000) (q k : Fin 128) : ridx_main_v47 (ix2 p q) k = ix2 k q :=
  funext fun a => Fin.ext (by match a with | ⟨0, _⟩ => rfl | ⟨1, _⟩ => rfl)
theorem lidx51_eq (p : Fin 50000) (q k : Fin 128) : lidx_main_v51 (ix2 p q) k = ix2 p k :=
  funext fun a => Fin.ext (by match a with | ⟨0, _⟩ => rfl | ⟨1, _⟩ => rfl)
theorem ridx51_eq (p : Fin 50000) (q k : Fin 128) : ridx_main_v51 (ix2 p q) k = ix2 k q :=
  funext fun a => Fin.ext (by match a with | ⟨0, _⟩ => rfl | ⟨1, _⟩ => rfl)
theorem cidx20_eq (p : Fin 50000) (k : Fin 128) : idx_main_v20 (ix2 p k) = ix2 p (0 : Fin 1) :=
  funext fun a => Fin.ext (by match a with | ⟨0, _⟩ => rfl | ⟨1, _⟩ => rfl)
theorem cidx45_eq (p : Fin 50000) (k : Fin 128) : idx_main_v45 (ix2 p k) = ix2 p (0 : Fin 1) :=
  funext fun a => Fin.ext (by match a with | ⟨0, _⟩ => rfl | ⟨1, _⟩ => rfl)
theorem bidx24_eq (p : Fin 50000) (q : Fin 128) : idx_main_v23 (idx_main_v24 (ix2 p q)) = ix1 q :=
  funext fun a => Fin.ext (by match a with | ⟨0, _⟩ => rfl)
theorem bidx49_eq (p : Fin 50000) (q : Fin 128) : idx_main_v48 (idx_main_v49 (ix2 p q)) = ix1 q :=
  funext fun a => Fin.ext (by match a with | ⟨0, _⟩ => rfl)

section layer1

variable (x0 : (⟨S50000x128, .f32⟩ : BufTy).Contents (Elt Ideal))
  (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal))

/-- The first layer's mean at (p, k): the summed message divided by the floored count of the row. -/
theorem v21_at (p : Fin 50000) (k : Fin 128) :
    val_main_v21 (F := Ideal) x0 x1 (ix2 p k)
      = Ideal.div (val_main_v13 (F := Ideal) x0 x1 (ix2 p k)) (val_main_v19 (F := Ideal) x1 (ix2 p (0 : Fin 1))) := by
  rw [val_main_v21_apply, val_main_v20_apply, cidx20_eq, Ideal.hostDivf_def]

/-- The first layer's product of the means with the first weight matrix, at (p, q). -/
theorem v22_at (p : Fin 50000) (q : Fin 128) :
    val_main_v22 (F := Ideal) x0 x1 x2 (ix2 p q)
      = ∑ k : Fin 128, Ideal.div (val_main_v13 (F := Ideal) x0 x1 (ix2 p k))
          (val_main_v19 (F := Ideal) x1 (ix2 p (0 : Fin 1))) * x2 (ix2 k q) := by
  rw [val_main_v22_apply]
  refine Finset.sum_congr rfl fun k _ => ?_
  rw [lidx22_eq, ridx22_eq, v21_at]

/-- The first layer's bias stretched along the nodes, at (p, q). -/
theorem v24_at (p : Fin 50000) (q : Fin 128) : val_main_v24 (F := Ideal) x3 (ix2 p q) = x3 (ix1 q) := by
  rw [val_main_v24_apply, val_main_v23_apply, bidx24_eq]

/-- The first layer's product of the input features with the second weight matrix, at (p, q). -/
theorem v26_at (p : Fin 50000) (q : Fin 128) :
    val_main_v26 (F := Ideal) x0 x4 (ix2 p q) = ∑ k : Fin 128, x0 (ix2 p k) * x4 (ix2 k q) := by
  rw [val_main_v26_apply]
  refine Finset.sum_congr rfl fun k _ => ?_
  rw [lidx26_eq, ridx26_eq]

/-- The first layer's floor is the zero word at every entry. -/
theorem floor1_at (j : S50000x128.Idx) :
    val_main_call0_v0 (F := Ideal) j = Ideal.ofBits .f32 0x00000000#32 := by
  rw [val_main_call0_v0_apply, val_main_call0_cst_apply, Ideal.ofBits_def]

/-- The first layer's output is the specification's layer of the first summed messages, the floored counts, the input
features and the first three parameters, floored at zero. -/
theorem layer1 :
    val_main_v28 (F := Ideal) x0 x1 x2 x3 x4
      = SageLayer.layerDiv (val_main_v13 (F := Ideal) x0 x1) (val_main_v19 (F := Ideal) x1) x0 x2 x3 x4
          (Ideal.ofBits .f32 0x00000000#32) := by
  funext j
  obtain ⟨p, q, rfl⟩ : ∃ (p : Fin 50000) (q : Fin 128), j = ix2 p q := ⟨j 0, j 1, eq_ix2 j⟩
  rw [layerDiv_ix2, val_main_v28_apply, val_main_v27_apply, val_main_v25_apply, v22_at, v24_at, v26_at, floor1_at,
    Ideal.maximumf_def, Ideal.addf_def, Ideal.addf_def]

end layer1

section layer2

variable (x0 : (⟨S50000x128, .f32⟩ : BufTy).Contents (Elt Ideal))
  (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 x5 : (⟨S128x128, .f32⟩ : BufTy).Contents (Elt Ideal)) (x6 : (⟨S128, .f32⟩ : BufTy).Contents (Elt Ideal))
  (x7 : (⟨S128x128, .f32⟩ : BufTy).Contents (Elt Ideal))

/-- The second layer's mean at (p, k): the summed message divided by the floored count of the row. -/
theorem v46_at (p : Fin 50000) (k : Fin 128) :
    val_main_v46 (F := Ideal) x0 x1 x2 x3 x4 (ix2 p k)
      = Ideal.div (val_main_v38 (F := Ideal) x0 x1 x2 x3 x4 (ix2 p k))
          (val_main_v44 (F := Ideal) x1 (ix2 p (0 : Fin 1))) := by
  rw [val_main_v46_apply, val_main_v45_apply, cidx45_eq, Ideal.hostDivf_def]

/-- The second layer's product of the means with its first weight matrix, at (p, q). -/
theorem v47_at (p : Fin 50000) (q : Fin 128) :
    val_main_v47 (F := Ideal) x0 x1 x2 x3 x4 x5 (ix2 p q)
      = ∑ k : Fin 128, Ideal.div (val_main_v38 (F := Ideal) x0 x1 x2 x3 x4 (ix2 p k))
          (val_main_v44 (F := Ideal) x1 (ix2 p (0 : Fin 1))) * x5 (ix2 k q) := by
  rw [val_main_v47_apply]
  refine Finset.sum_congr rfl fun k _ => ?_
  rw [lidx47_eq, ridx47_eq, v46_at]

/-- The second layer's bias stretched along the nodes, at (p, q). -/
theorem v49_at (p : Fin 50000) (q : Fin 128) : val_main_v49 (F := Ideal) x6 (ix2 p q) = x6 (ix1 q) := by
  rw [val_main_v49_apply, val_main_v48_apply, bidx49_eq]

/-- The second layer's product of the first layer's output with its second weight matrix, at (p, q). -/
theorem v51_at (p : Fin 50000) (q : Fin 128) :
    val_main_v51 (F := Ideal) x0 x1 x2 x3 x4 x7 (ix2 p q)
      = ∑ k : Fin 128, val_main_v28 (F := Ideal) x0 x1 x2 x3 x4 (ix2 p k) * x7 (ix2 k q) := by
  rw [val_main_v51_apply]
  refine Finset.sum_congr rfl fun k _ => ?_
  rw [lidx51_eq, ridx51_eq]

/-- The second layer's floor is the zero word at every entry. -/
theorem floor2_at (j : S50000x128.Idx) :
    val_main_call1_v0 (F := Ideal) j = Ideal.ofBits .f32 0x00000000#32 := by
  rw [val_main_call1_v0_apply, val_main_call1_cst_apply, Ideal.ofBits_def]

/-- The second layer's output is the specification's layer of the second summed messages, its floored counts, the first
layer's output and the last three parameters, floored at zero. -/
theorem layer2 :
    val_main_v53 (F := Ideal) x0 x1 x2 x3 x4 x5 x6 x7
      = SageLayer.layerDiv (val_main_v38 (F := Ideal) x0 x1 x2 x3 x4) (val_main_v44 (F := Ideal) x1)
          (val_main_v28 (F := Ideal) x0 x1 x2 x3 x4) x5 x6 x7 (Ideal.ofBits .f32 0x00000000#32) := by
  funext j
  obtain ⟨p, q, rfl⟩ : ∃ (p : Fin 50000) (q : Fin 128), j = ix2 p q := ⟨j 0, j 1, eq_ix2 j⟩
  rw [layerDiv_ix2, val_main_v53_apply, val_main_v52_apply, val_main_v50_apply, v47_at, v49_at, v51_at, floor2_at,
    Ideal.maximumf_def, Ideal.addf_def, Ideal.addf_def]

end layer2

/-- The second layer's floored counts are the first layer's: both are the scatter-sum of ones over the target nodes,
floored at one. -/
theorem count_floor_eq (x1 : (⟨S2x800000, .i32⟩ : BufTy).Contents (Elt Ideal)) :
    val_main_v44 (F := Ideal) x1 = val_main_v19 (F := Ideal) x1 := rfl

/-- A floored count is never zero: it is max(count, 1) ≥ 1 > 0. -/
theorem count_floor_ne_zero (x1 : (⟨S2x800000, .i32⟩ : BufTy).Contents (Elt Ideal)) (i : S50000x1.Idx) :
    val_main_v19 (F := Ideal) x1 i ≠ 0 := by
  rw [val_main_v19_apply, val_main_v18_apply, val_main_cst_3_apply, Ideal.maximumf_def, Ideal.ofBits_def, ofBits_one]
  exact SageLayer.max_one_ne_zero _

end Cert.ReferenceIdeal.RefValue

end
-- ==== Proof.Bridge.lean ====
/-
  The two programs compute one function.

  The kernel program takes each layer's mean by multiplying the summed messages with the reciprocal column
  1 / max(count, 1), computed once; the reference divides the summed messages by max(count, 1) in each layer. Both read the
  same edge array, so the gathered-and-summed messages of a feature matrix, the counts and their floor at one are the
  same host expressions on the two sides (the kernel's narrower gathered copy is the identity on exact values). The
  word of one is the real 1, a count floored at one is at least 1 and so not zero, and off zero x · (1 / y) = x / y on
  every extended real: layer by layer the kernel's product form is the reference's quotient form.
-/
import proofs.«172372_j22170621182211_2_alg».proof.Proof.KernelTerms
import proofs.«172372_j22170621182211_2_alg».proof.Proof.RefLayers
import Idealize.ShloMosaic.Lib.Pipeline.Value

set_option maxRecDepth 16384

noncomputable section

namespace Cert.Bridge

open Idealize.ShloMosaic Idealize.ShloMosaic.TcCoe
open Cert.KernelIdeal.Whole Cert.ReferenceIdeal.Read Cert.ReferenceIdeal.RefValue

variable (x0 : (⟨Cert.ReferenceIdeal.S50000x128, .f32⟩ : BufTy).Contents (Elt Ideal))
  (x1 : (⟨Cert.ReferenceIdeal.S2x800000, .i32⟩ : BufTy).Contents (Elt Ideal))
  (x2 : (⟨Cert.ReferenceIdeal.S128x128, .f32⟩ : BufTy).Contents (Elt Ideal))
  (x3 : (⟨Cert.ReferenceIdeal.S128, .f32⟩ : BufTy).Contents (Elt Ideal))
  (x4 x5 : (⟨Cert.ReferenceIdeal.S128x128, .f32⟩ : BufTy).Contents (Elt Ideal))
  (x6 : (⟨Cert.ReferenceIdeal.S128, .f32⟩ : BufTy).Contents (Elt Ideal))
  (x7 : (⟨Cert.ReferenceIdeal.S128x128, .f32⟩ : BufTy).Contents (Elt Ideal))

/-- The floored counts are one host expression on the two sides. -/
theorem countFloor_eq : countFloor x1 = val_main_v19 (F := Ideal) x1 := rfl

/-- The kernel's reciprocal column is 1 over the reference's floored count. -/
theorem recip_eq : recip x1 = fun i => Ideal.div 1 (val_main_v19 (F := Ideal) x1 i) := by
  funext i
  rw [recip_apply, ofBits_one, countFloor_eq]

/-- The summed messages of the node features are one host expression on the two sides. -/
theorem gatherSum_first : gatherSum x1 x0 = val_main_v13 (F := Ideal) x0 x1 := rfl

/-- The first layers agree. -/
theorem hidden_eq : Cert.KernelIdeal.Whole.hidden x1 x0 x2 x3 x4 = val_main_v28 (F := Ideal) x0 x1 x2 x3 x4 := by
  unfold Cert.KernelIdeal.Whole.hidden
  rw [recip_eq, gatherSum_first, layer1]
  exact SageLayer.layerMul_recip _ _ _ _ _ _ _ (count_floor_ne_zero x1)

/-- The summed messages of the first layer's output are one host expression on the two sides. -/
theorem gatherSum_second :
    gatherSum x1 (val_main_v28 (F := Ideal) x0 x1 x2 x3 x4) = val_main_v38 (F := Ideal) x0 x1 x2 x3 x4 := rfl

/-- THE TWO RESULTS AGREE. -/
theorem result_eq :
    result x1 x0 x2 x3 x4 x5 x6 x7 = val_main_v53 (F := Ideal) x0 x1 x2 x3 x4 x5 x6 x7 := by
  unfold result
  rw [hidden_eq, recip_eq, gatherSum_second, layer2, count_floor_eq]
  exact SageLayer.layerMul_recip _ _ _ _ _ _ _ (count_floor_ne_zero x1)

end Cert.Bridge

end
-- ==== Proof.lean ====
/-
  The certificate of a two-layer mean-aggregation graph network: a kernel program against its reference.

  Both programs take node features x [50000, 128], an edge array [2, 800000] and two layers' parameters. A layer sums,
  for every node, the features of the sources of its incoming edges (a gather and a scatter-add on the host), takes the
  mean over the incoming edges (their count floored at one), multiplies by a weight matrix, adds a bias and the node's
  own features times a second weight matrix, and floors the result at zero. The reference does all of it on the host,
  dividing by the floored count. The kernel program computes the reciprocal of the floored count once on the host and
  runs each layer's dense part as a call over 25 blocks of 2000 rows, multiplying by the reciprocal; its gathers read a
  copy of the features in a shorter float format, the identity on exact values.

  At the exact values the two results are equal entry by entry: off zero, x · (1 / y) = x / y on every extended real,
  and a count floored at one is never zero. No finiteness of the inputs is used.

  The three frames are the generated ones (the reference's is its generated run with the result dropped); the kernel
  program's idealization rewrote nothing, so that conjunct is trivial; the value claim joins the kernel program's run
  with its result buffer named (the result read through the boundary contents back to the arguments) and the
  reference's generated run by the bridge between the two terms.
-/
import proofs.«172372_j22170621182211_2_alg».proof.Defs
import proofs.«172372_j22170621182211_2_alg».proof.Proof.Gen.Kernel
import proofs.«172372_j22170621182211_2_alg».proof.Proof.Gen.Kernel.Skeleton
import proofs.«172372_j22170621182211_2_alg».proof.Proof.Gen.Kernel.Launch
import proofs.«172372_j22170621182211_2_alg».proof.Proof.Gen.Kernel.Points
import proofs.«172372_j22170621182211_2_alg».proof.Proof.Gen.Kernel.Frame
import proofs.«172372_j22170621182211_2_alg».proof.Proof.Gen.KernelIdeal
import proofs.«172372_j22170621182211_2_alg».proof.Proof.Gen.KernelIdeal.Skeleton
import proofs.«172372_j22170621182211_2_alg».proof.Proof.Gen.KernelIdeal.Launch
import proofs.«172372_j22170621182211_2_alg».proof.Proof.Gen.KernelIdeal.Points
import proofs.«172372_j22170621182211_2_alg».proof.Proof.Gen.KernelIdeal.Frame
import proofs.«172372_j22170621182211_2_alg».proof.Proof.Gen.ReferenceIdeal
import proofs.«172372_j22170621182211_2_alg».proof.Proof.Gen.ReferenceIdeal.Run
import proofs.«172372_j22170621182211_2_alg».proof.Proof.Gen.ReferenceIdeal.Read
import proofs.«172372_j22170621182211_2_alg».proof.Proof.Gen.Pre_finite_inputs
import proofs.«172372_j22170621182211_2_alg».proof.Proof.KernelWhole
import proofs.«172372_j22170621182211_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs run, and both results are the two layers of the
    arguments: the kernel program's by its run read back to the arguments, the reference's by its generated run and the
    bridge between the two terms. -/
theorem algebraic : Cert.algebraic_KernelIdeal_ReferenceIdeal := by
  intro m ρ m' ρ' _ hagree
  refine ⟨fun c => Cert.KernelIdeal.Whole.result (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Whole.W4_result m ρ c), (h c).2⟩)
      (Cert.KernelIdeal.Run.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v53_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact (Cert.Bridge.result_eq _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
